-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 113
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x64, .f32⟩
  | .hbm, ⟨80, _⟩ => ⟨S800000x64, .f32⟩
  | .hbm, ⟨81, _⟩ => ⟨S_, .f32⟩
  | .hbm, ⟨82, _⟩ => ⟨S50000x64, .f32⟩
  | .hbm, ⟨83, _⟩ => ⟨S800000x1, .i32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x64, .f32⟩
  | .hbm, ⟨101, _⟩ => ⟨S800000x64, .f32⟩
  | .hbm, ⟨102, _⟩ => ⟨S800000x64, .f32⟩
  | .hbm, ⟨103, _⟩ => ⟨S_, .f32⟩
  | .hbm, ⟨104, _⟩ => ⟨S50000x64, .f32⟩
  | .hbm, ⟨105, _⟩ => ⟨S800000x1, .i32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S1x64, .f32⟩
  | .hbm, ⟨111, _⟩ => ⟨S50000x64, .f32⟩
  | .hbm, ⟨112, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_11 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x64, .f32⟩
  | .hbm, ⟨80, _⟩ => ⟨S800000x64, .f32⟩
  | .hbm, ⟨81, _⟩ => ⟨S_, .f32⟩
  | .hbm, ⟨82, _⟩ => ⟨S50000x64, .f32⟩
  | .hbm, ⟨83, _⟩ => ⟨S800000x1, .i32⟩
  | .hbm, ⟨84, _⟩ => ⟨S50000x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S50000x64, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x64, .f32⟩
  | .hbm, ⟨101, _⟩ => ⟨S800000x64, .f32⟩
  | .hbm, ⟨102, _⟩ => ⟨S800000x64, .f32⟩
  | .hbm, ⟨103, _⟩ => ⟨S_, .f32⟩
  | .hbm, ⟨104, _⟩ => ⟨S50000x64, .f32⟩
  | .hbm, ⟨105, _⟩ => ⟨S800000x1, .i32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S1x64, .f32⟩
  | .hbm, ⟨111, _⟩ => ⟨S50000x64, .f32⟩
  | .hbm, ⟨112, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_11 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run, with its final memory named.

  The program is three pipelined matrix products among four stretches of host operations. Its segments'
  boundary contents are a fold from the launch memory: a stretch applies its operations in order, a
  region overwrites its output array by what its grid points write back and leaves every other buffer
  alone. Every weakly fair execution terminates, and at the end each buffer that outlives the regions
  holds the LAST boundary's contents. The two result arrays and the eight argument arrays are such buffers,
  so the results are read off that last valuation and the arguments walk back to the launch memory.
-/
import proofs.«159189_j38654705664008_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and in its final memory every buffer that is
    not scoped to a region holds, on each core, the contents of the last segment boundary. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the two result arrays read off the last boundary and the arguments as launched. -/
theorem run_results : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_v86) = W8 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v67 (by decide)),
       h c _ (mem_uc main_v86 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_final m ρ)

end Cert.KernelIdeal.Hand

end
-- ==== Proof.Stage0.lean ====
/-
  Boundary 1: the contents of the live buffers when the first matrix product is entered.

  The first stretch of host operations computes, from the edge list alone, the source and target index vectors,
  the edge weights (the product of the two end points' inverse square-root degrees) and the self weights (the square
  of that factor); it writes no argument array. Read at those four buffers, its operations compose exactly the
  reference's stage functions of the edge list.
-/
import proofs.«159189_j38654705664008_1_alg».proof.Proof.Gen.KernelIdeal.Frame
import proofs.«159189_j38654705664008_1_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

theorem at1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp <;> rfl

theorem at1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp <;> rfl

theorem at1_v26 : W1 m ρ c (Proc.devRef .tc main_v26) = Cert.ReferenceIdeal.Read.val_main_v26 (F := Ideal) (m ((c.tc : Thread nD τ).loc main_arg1)) := by
  show StableHlo.after hostOps0 (W0 m ρ c) (Proc.devRef .tc main_v26) = _
  after_results_simp <;> rfl

theorem at1_v28 : W1 m ρ c (Proc.devRef .tc main_v28) = Cert.ReferenceIdeal.Read.val_main_v28 (F := Ideal) (m ((c.tc : Thread nD τ).loc main_arg1)) := by
  show StableHlo.after hostOps0 (W0 m ρ c) (Proc.devRef .tc main_v28) = _
  after_results_simp <;> rfl

theorem at1_arg0 : W1 m ρ c (Proc.devRef .tc main_arg0) = (m ((c.tc : Thread nD τ).loc main_arg0)) := by
  show StableHlo.after hostOps0 (W0 m ρ c) (Proc.devRef .tc main_arg0) = _
  after_results_simp <;> rfl

theorem at1_arg2 : W1 m ρ c (Proc.devRef .tc main_arg2) = (m ((c.tc : Thread nD τ).loc main_arg2)) := by
  show StableHlo.after hostOps0 (W0 m ρ c) (Proc.devRef .tc main_arg2) = _
  after_results_simp <;> rfl

theorem at1_arg3 : W1 m ρ c (Proc.devRef .tc main_arg3) = (m ((c.tc : Thread nD τ).loc main_arg3)) := by
  show StableHlo.after hostOps0 (W0 m ρ c) (Proc.devRef .tc main_arg3) = _
  after_results_simp <;> rfl

theorem at1_arg4 : W1 m ρ c (Proc.devRef .tc main_arg4) = (m ((c.tc : Thread nD τ).loc main_arg4)) := by
  show StableHlo.after hostOps0 (W0 m ρ c) (Proc.devRef .tc main_arg4) = _
  after_results_simp <;> rfl

theorem at1_arg5 : W1 m ρ c (Proc.devRef .tc main_arg5) = (m ((c.tc : Thread nD τ).loc main_arg5)) := by
  show StableHlo.after hostOps0 (W0 m ρ c) (Proc.devRef .tc main_arg5) = _
  after_results_simp <;> rfl

theorem at1_arg6 : W1 m ρ c (Proc.devRef .tc main_arg6) = (m ((c.tc : Thread nD τ).loc main_arg6)) := by
  show StableHlo.after hostOps0 (W0 m ρ c) (Proc.devRef .tc main_arg6) = _
  after_results_simp <;> rfl

theorem at1_arg7 : W1 m ρ c (Proc.devRef .tc main_arg7) = (m ((c.tc : Thread nD τ).loc main_arg7)) := by
  show StableHlo.after hostOps0 (W0 m ρ c) (Proc.devRef .tc main_arg7) = _
  after_results_simp <;> rfl

end Cert.KernelIdeal.Hand

end
-- ==== Proof.Region0.lean ====
/-
  Region 0: the pipelined matrix product, as one whole-array function.

  The grid has ten points; point t multiplies rows 5000·t … 5000·t + 4999 of the left operand by the whole
  right operand and writes rows 5000·t … 5000·t + 4999 of the result. Over the extended reals a change of
  float format is the identity and the product into a zero accumulator is the plain sum
      out (r, c) = ∑ k, left (r, k) · right (k, c),
  so each written block is the corresponding block of the host's contraction of the two whole arrays
  (the same sum, read at row 5000·t + r), and the ten blocks tile the result.
-/
import proofs.«159189_j38654705664008_1_alg».proof.Proof.Gen.KernelIdeal.Frame
import proofs.«159189_j38654705664008_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand.Region0

open Idealize.ShloMosaic Idealize.ShloMosaic.TcCoe Idealize.SL.Sem
open Idealize.ShloMosaic.Pipeline (Dat)
open Cert.KernelIdeal Cert.KernelIdeal.Gen

/-- The block's contraction record. -/
abbrev dblk := dot_S5000x128_S128x64_S5000x64_1_0_0_1_n_n

theorem hz : (![0, 0] : Fin 2 → Nat) = fun _ => 0 := funext fun a => by fin_cases a <;> rfl

/-! ## The body's product at an index -/

theorem lhs_row (j : S5000x64.Idx) (q : dblk.contr.Idx) : (dblk.lhsIdx j q 0).val = (j 0).val := by
  unfold DotDims.lhsIdx
  rw [dif_neg (show ¬(0 : Fin S5000x128.rank) ∈ dblk.lhsBatch by decide), dif_pos (show (0 : Fin S5000x128.rank) ∈ dblk.lhsNonContracting by decide)]
  rfl
theorem lhs_col (j : S5000x64.Idx) (q : dblk.contr.Idx) : (dblk.lhsIdx j q 1).val = (q ⟨0, by decide⟩).val :=
  dblk.lhsIdx_val_of_single rfl j q
theorem rhs_row (j : S5000x64.Idx) (q : dblk.contr.Idx) : (dblk.rhsIdx j q 0).val = (q ⟨0, by decide⟩).val :=
  dblk.rhsIdx_val_of_single rfl j q
theorem rhs_col (j : S5000x64.Idx) (q : dblk.contr.Idx) : (dblk.rhsIdx j q 1).val = (j 1).val := by
  unfold DotDims.rhsIdx
  rw [dif_neg (show ¬(1 : Fin S128x64.rank) ∈ dblk.rhsBatch by decide), dif_pos (show (1 : Fin S128x64.rank) ∈ dblk.rhsNonContracting by decide)]
  rfl

/-- Entry (row of the output index, k) of the left block. -/
abbrev leftAt (j : S5000x64.Idx) (k : Fin 128) : S5000x128.Idx := fun a => match a with
  | ⟨0, _⟩ => ⟨(j 0).val, (j 0).isLt⟩
  | ⟨1, _⟩ => ⟨k.val, k.isLt⟩
/-- Entry (k, column of the output index) of the right operand. -/
abbrev rightAt (j : S5000x64.Idx) (k : Fin 128) : S128x64.Idx := fun a => match a with
  | ⟨0, _⟩ => ⟨k.val, k.isLt⟩
  | ⟨1, _⟩ => ⟨(j 1).val, (j 1).isLt⟩

/-- The body's stored value at (r, c) is ∑ k, left (r, k) · right (k, c): the format changes are the identity and the
    accumulator is zero. -/
theorem body_apply (x0 : Vec Ideal S5000x128 .f32) (x1 : Vec Ideal S128x64 .f32) (j : S5000x64.Idx) :
    k0_pay1 (F := Ideal) x0 x1 j = ∑ k : Fin 128, x0 (leftAt j k) * x1 (rightAt j k) := by
  unfold k0_pay1
  refine (Ideal.matmul_constant_zero_apply dblk none _ _ j).trans ?_
  rw [← Equiv.sum_comp (ValueIdx.contrEquiv1 dblk 128 rfl rfl).symm]
  refine Finset.sum_congr rfl fun k _ => ?_
  have hk := ValueIdx.contrEquiv1_symm_val dblk 128 rfl rfl k
  have el : dblk.lhsIdx j ((ValueIdx.contrEquiv1 dblk 128 rfl rfl).symm k) = leftAt j k := funext fun a => Fin.ext (by
    match a with
    | ⟨0, _⟩ => exact lhs_row _ _
    | ⟨1, _⟩ => exact (lhs_col _ _).trans hk)
  have er : dblk.rhsIdx j ((ValueIdx.contrEquiv1 dblk 128 rfl rfl).symm k) = rightAt j k := funext fun a => Fin.ext (by
    match a with
    | ⟨0, _⟩ => exact (rhs_row _ _).trans hk
    | ⟨1, _⟩ => exact rhs_col _ _)
  rw [el, er]
  rfl

/-! ## The whole-array product -/

/-- The host's contraction of the two whole arrays. -/
abbrev prod (a : FVec Ideal S50000x128 .f32) (w : FVec Ideal S128x64 .f32) : FVec Ideal S50000x64 .f32 :=
  Host.dotGeneral (F := Ideal) Cert.ReferenceIdeal.dot_S50000x128_S128x64_S50000x64_1_0_0_1_n_n none a w

/-- The whole contraction at (r, c) is ∑ k, left (r, k) · right (k, c). -/
theorem prod_apply (a : FVec Ideal S50000x128 .f32) (w : FVec Ideal S128x64 .f32) (i : S50000x64.Idx) :
    prod a w i = ∑ k : Fin 128, a (Cert.ReferenceIdeal.Read.lidx_main_v29 i k) * w (Cert.ReferenceIdeal.Read.ridx_main_v29 i k) := by
  simp only [prod, Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : (Cert.ReferenceIdeal.dot_S50000x128_S128x64_S50000x64_1_0_0_1_n_n).lhsIdx i ((ValueIdx.contrEquiv1 Cert.ReferenceIdeal.dot_S50000x128_S128x64_S50000x64_1_0_0_1_n_n 128 rfl rfl).symm k) = Cert.ReferenceIdeal.Read.lidx_main_v29 i k := funext fun a => Fin.ext (by
    match a with
    | ⟨0, _⟩ => exact Cert.ReferenceIdeal.Read.lhs_main_v29_0 _ _
    | ⟨1, _⟩ => exact (Cert.ReferenceIdeal.Read.lhs_main_v29_1 _ _).trans hk)
  have er : (Cert.ReferenceIdeal.dot_S50000x128_S128x64_S50000x64_1_0_0_1_n_n).rhsIdx i ((ValueIdx.contrEquiv1 Cert.ReferenceIdeal.dot_S50000x128_S128x64_S50000x64_1_0_0_1_n_n 128 rfl rfl).symm k) = Cert.ReferenceIdeal.Read.ridx_main_v29 i k := funext fun a => Fin.ext (by
    match a with
    | ⟨0, _⟩ => exact (Cert.ReferenceIdeal.Read.rhs_main_v29_0 _ _).trans hk
    | ⟨1, _⟩ => exact Cert.ReferenceIdeal.Read.rhs_main_v29_1 _ _)
  rw [el, er]

/-! ## From blocks to the array -/

variable (V : (c : Dev nD) → (b : Ref sig .tc) → Buf (Elt Ideal) ((c : Thread nD τ).loc b))

/-- The printed index maps over the grid: the left window and the output window move together down the rows, the right
    window stays at block (0, 0), and the output's block row is the point's number. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array product of the region's two input arrays. -/
theorem flushed_eq (c : Dev nD) (t : Fin cfg0.N) :
    (dat0 V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  show k0_pay1 (F := Ideal) (iblk0 V c 0 t) (iblk0 V c 1 t) j
    = prod (V c (Pipeline.arrRef spec0 0)) (V c (Pipeline.arrRef spec0 1)) (((cfg0.win 2).blk t).view.emb j)
  refine (body_apply (iblk0 V c 0 t) (iblk0 V c 1 t) j).trans ?_
  refine Eq.trans ?_ (prod_apply (V c (Pipeline.arrRef spec0 0)) (V c (Pipeline.arrRef spec0 1)) (((cfg0.win 2).blk t).view.emb j)).symm
  refine Finset.sum_congr rfl fun k _ => ?_
  have hl : ((cfg0.win 0).blk t).view.emb (leftAt j k) = Cert.ReferenceIdeal.Read.lidx_main_v29 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : ((cfg0.win 1).blk t).view.emb (rightAt j k) = Cert.ReferenceIdeal.Read.ridx_main_v29 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [← hl, ← hr]
  rfl

/-- An index of the result array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Row r of the result is written by point r / 5000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e5]; omega

/-- After the region its output array holds the whole-array product of its two input arrays as the region found them. -/
theorem out_eq (c : Dev nD) :
    (dat0 V c).arrAt 2 cfg0.N = prod (V c (Pipeline.arrRef spec0 0)) (V c (Pipeline.arrRef spec0 1)) :=
  (dat0 V c).arrAt_eq_of_cover 2 _ (fun t _ => flushed_eq V c t) cover

end Cert.KernelIdeal.Hand.Region0

end
-- ==== Proof.Stage1.lean ====
/-
  Boundary 2: after the first matrix product.

  The product writes only its output array (the whole contraction, Region0); the index vectors, the weights and the remaining arguments pass through.
-/
import proofs.«159189_j38654705664008_1_alg».proof.Proof.Stage0
import proofs.«159189_j38654705664008_1_alg».proof.Proof.Region0

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- The region's output array: the whole contraction of its two inputs, which are already known stages. -/
theorem at2_v29 : W2 m ρ c (Proc.devRef .tc main_v29) = Cert.ReferenceIdeal.Read.val_main_v29 (F := Ideal) (m ((c.tc : Thread nD τ).loc main_arg0)) (m ((c.tc : Thread nD τ).loc main_arg2)) := by
  refine (W2_arr m ρ c 2).trans ((Region0.out_eq (V1 m ρ) c).trans ?_)
  show Region0.prod (W1 m ρ c (Proc.devRef .tc main_arg0)) (W1 m ρ c (Proc.devRef .tc main_arg2)) = _
  rw [at1_arg0 m ρ c, at1_arg2 m ρ c]
  rfl

theorem at2_v1 : W2 m ρ c (Proc.devRef .tc main_v1) = Cert.ReferenceIdeal.Read.val_main_v1 (F := Ideal) (m ((c.tc : Thread nD τ).loc main_arg1)) := by
  exact (W2_of_ne m ρ c main_v1 (by decide)).trans (at1_v1 m ρ c)

theorem at2_v3 : W2 m ρ c (Proc.devRef .tc main_v3) = Cert.ReferenceIdeal.Read.val_main_v3 (F := Ideal) (m ((c.tc : Thread nD τ).loc main_arg1)) := by
  exact (W2_of_ne m ρ c main_v3 (by decide)).trans (at1_v3 m ρ c)

theorem at2_v26 : W2 m ρ c (Proc.devRef .tc main_v26) = Cert.ReferenceIdeal.Read.val_main_v26 (F := Ideal) (m ((c.tc : Thread nD τ).loc main_arg1)) := by
  exact (W2_of_ne m ρ c main_v26 (by decide)).trans (at1_v26 m ρ c)

theorem at2_v28 : W2 m ρ c (Proc.devRef .tc main_v28) = Cert.ReferenceIdeal.Read.val_main_v28 (F := Ideal) (m ((c.tc : Thread nD τ).loc main_arg1)) := by
  exact (W2_of_ne m ρ c main_v28 (by decide)).trans (at1_v28 m ρ c)

theorem at2_arg3 : W2 m ρ c (Proc.devRef .tc main_arg3) = (m ((c.tc : Thread nD τ).loc main_arg3)) := by
  exact (W2_of_ne m ρ c main_arg3 (by decide)).trans (at1_arg3 m ρ c)

theorem at2_arg4 : W2 m ρ c (Proc.devRef .tc main_arg4) = (m ((c.tc : Thread nD τ).loc main_arg4)) := by
  exact (W2_of_ne m ρ c main_arg4 (by decide)).trans (at1_arg4 m ρ c)

theorem at2_arg5 : W2 m ρ c (Proc.devRef .tc main_arg5) = (m ((c.tc : Thread nD τ).loc main_arg5)) := by
  exact (W2_of_ne m ρ c main_arg5 (by decide)).trans (at1_arg5 m ρ c)

theorem at2_arg6 : W2 m ρ c (Proc.devRef .tc main_arg6) = (m ((c.tc : Thread nD τ).loc main_arg6)) := by
  exact (W2_of_ne m ρ c main_arg6 (by decide)).trans (at1_arg6 m ρ c)

theorem at2_arg7 : W2 m ρ c (Proc.devRef .tc main_arg7) = (m ((c.tc : Thread nD τ).loc main_arg7)) := by
  exact (W2_of_ne m ρ c main_arg7 (by decide)).trans (at1_arg7 m ρ c)

end Cert.KernelIdeal.Hand

end
-- ==== Proof.Stage1b.lean ====
/-
  Boundary 4: after the first layer's host operations.

  The stretch after the first product gathers the product's rows along the sources, scales them by the edge weights,
  scatter-adds them onto the targets and adds the self term and the bias: read at that sum, its operations compose the
  reference's stage of the same name. The rectifier, an outlined function of three operations, is then one more
  stage on top of that NAMED value. The index vectors, the weights and the remaining arguments pass through.
-/
import proofs.«159189_j38654705664008_1_alg».proof.Proof.Stage1

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- The first layer before the rectifier: neighbour sum, self term and bias of the first product. -/
theorem at3_v47 : W3 m ρ c (Proc.devRef .tc main_v47) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W2 m ρ c) (Proc.devRef .tc main_v47) = _
  after_results_simp
  simp only [at2_v29 m ρ c, at2_v1 m ρ c, at2_v3 m ρ c, at2_v26 m ρ c, at2_v28 m ρ c, at2_arg3 m ρ c] <;> rfl

/-- The rectifier's three operations, on ANY value of the layer's shape: the maximum of that value and the zero array
    (the outlined function's buffers are typed references; reading through them is the identity). -/
theorem relu_stage (Z : (⟨Cert.ReferenceIdeal.S50000x64, .f32⟩ : BufTy).Contents (Elt Ideal)) :
    ((.of main_v48 : StableHlo.TRef sig ⟨S50000x64, .f32⟩)).toBuf (Val := Elt Ideal)
      (maximumf (F := Ideal) (s := S50000x64) (φ := .f32) (((.of main_v47 : StableHlo.TRef sig ⟨S50000x64, .f32⟩)).ofBuf Z)
        (((.of main_call0_v0 : StableHlo.TRef sig ⟨S50000x64, .f32⟩)).ofBuf (((.of main_call0_v0 : StableHlo.TRef sig ⟨S50000x64, .f32⟩)).toBuf (Val := Elt Ideal)
        (broadcastInDim S50000x64 ![] bcast_S_S50000x64
          (((.of main_call0_cst : StableHlo.TRef sig ⟨S_, .f32⟩)).ofBuf (((.of main_call0_cst : StableHlo.TRef sig ⟨S_, .f32⟩)).toBuf (Val := Elt Ideal) (constant (F := Ideal) S_ .f32 0x00000000#32)))))))
      = maximumf (F := Ideal) (s := Cert.ReferenceIdeal.S50000x64) (φ := .f32) Z (Cert.ReferenceIdeal.Read.val_main_call0_v0 (F := Ideal)) := rfl

/-- The first layer's output: the rectifier of the value above, read with that value kept as a name. -/
theorem at4_v48 : W4 m ρ c (Proc.devRef .tc main_v48) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1_1 (W3 m ρ c) (Proc.devRef .tc main_v48) = _
  have h47 := at3_v47 m ρ c
  generalize W3 m ρ c = Y at h47 ⊢
  after_results_simp
  rw [h47]
  unfold Cert.ReferenceIdeal.Read.val_main_v48
  exact relu_stage _

theorem at4_v1 : W4 m ρ c (Proc.devRef .tc main_v1) = Cert.ReferenceIdeal.Read.val_main_v1 (F := Ideal) (m ((c.tc : Thread nD τ).loc main_arg1)) := by
  show StableHlo.after hostOps1_1 (StableHlo.after hostOps1 (W2 m ρ c)) (Proc.devRef .tc main_v1) = _
  after_results_simp
  exact at2_v1 m ρ c

theorem at4_v3 : W4 m ρ c (Proc.devRef .tc main_v3) = Cert.ReferenceIdeal.Read.val_main_v3 (F := Ideal) (m ((c.tc : Thread nD τ).loc main_arg1)) := by
  show StableHlo.after hostOps1_1 (StableHlo.after hostOps1 (W2 m ρ c)) (Proc.devRef .tc main_v3) = _
  after_results_simp
  exact at2_v3 m ρ c

theorem at4_v26 : W4 m ρ c (Proc.devRef .tc main_v26) = Cert.ReferenceIdeal.Read.val_main_v26 (F := Ideal) (m ((c.tc : Thread nD τ).loc main_arg1)) := by
  show StableHlo.after hostOps1_1 (StableHlo.after hostOps1 (W2 m ρ c)) (Proc.devRef .tc main_v26) = _
  after_results_simp
  exact at2_v26 m ρ c

theorem at4_v28 : W4 m ρ c (Proc.devRef .tc main_v28) = Cert.ReferenceIdeal.Read.val_main_v28 (F := Ideal) (m ((c.tc : Thread nD τ).loc main_arg1)) := by
  show StableHlo.after hostOps1_1 (StableHlo.after hostOps1 (W2 m ρ c)) (Proc.devRef .tc main_v28) = _
  after_results_simp
  exact at2_v28 m ρ c

theorem at4_arg4 : W4 m ρ c (Proc.devRef .tc main_arg4) = (m ((c.tc : Thread nD τ).loc main_arg4)) := by
  show StableHlo.after hostOps1_1 (StableHlo.after hostOps1 (W2 m ρ c)) (Proc.devRef .tc main_arg4) = _
  after_results_simp
  exact at2_arg4 m ρ c

theorem at4_arg5 : W4 m ρ c (Proc.devRef .tc main_arg5) = (m ((c.tc : Thread nD τ).loc main_arg5)) := by
  show StableHlo.after hostOps1_1 (StableHlo.after hostOps1 (W2 m ρ c)) (Proc.devRef .tc main_arg5) = _
  after_results_simp
  exact at2_arg5 m ρ c

theorem at4_arg6 : W4 m ρ c (Proc.devRef .tc main_arg6) = (m ((c.tc : Thread nD τ).loc main_arg6)) := by
  show StableHlo.after hostOps1_1 (StableHlo.after hostOps1 (W2 m ρ c)) (Proc.devRef .tc main_arg6) = _
  after_results_simp
  exact at2_arg6 m ρ c

theorem at4_arg7 : W4 m ρ c (Proc.devRef .tc main_arg7) = (m ((c.tc : Thread nD τ).loc main_arg7)) := by
  show StableHlo.after hostOps1_1 (StableHlo.after hostOps1 (W2 m ρ c)) (Proc.devRef .tc main_arg7) = _
  after_results_simp
  exact at2_arg7 m ρ c

end Cert.KernelIdeal.Hand

end
-- ==== Proof.Region1.lean ====
/-
  Region 1: the pipelined matrix product, as one whole-array function.

  The grid has ten points; point t multiplies rows 5000·t … 5000·t + 4999 of the left operand by the whole
  right operand and writes rows 5000·t … 5000·t + 4999 of the result. Over the extended reals a change of
  float format is the identity and the product into a zero accumulator is the plain sum
      out (r, c) = ∑ k, left (r, k) · right (k, c),
  (regions 1 and 2 also cast the left block to its own shape first, the identity), so each written block is the corresponding block of the host's contraction of the two whole arrays
  (the same sum, read at row 5000·t + r), and the ten blocks tile the result.
-/
import proofs.«159189_j38654705664008_1_alg».proof.Proof.Gen.KernelIdeal.Frame
import proofs.«159189_j38654705664008_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand.Region1

open Idealize.ShloMosaic Idealize.ShloMosaic.TcCoe Idealize.SL.Sem
open Idealize.ShloMosaic.Pipeline (Dat)
open Cert.KernelIdeal Cert.KernelIdeal.Gen

/-- The block's contraction record. -/
abbrev dblk := dot_S5000x64_S64x64_S5000x64_1_0_0_1_n_n

theorem hz : (![0, 0] : Fin 2 → Nat) = fun _ => 0 := funext fun a => by fin_cases a <;> rfl

/-! ## The body's product at an index -/

theorem lhs_row (j : S5000x64.Idx) (q : dblk.contr.Idx) : (dblk.lhsIdx j q 0).val = (j 0).val := by
  unfold DotDims.lhsIdx
  rw [dif_neg (show ¬(0 : Fin S5000x64.rank) ∈ dblk.lhsBatch by decide), dif_pos (show (0 : Fin S5000x64.rank) ∈ dblk.lhsNonContracting by decide)]
  rfl
theorem lhs_col (j : S5000x64.Idx) (q : dblk.contr.Idx) : (dblk.lhsIdx j q 1).val = (q ⟨0, by decide⟩).val :=
  dblk.lhsIdx_val_of_single rfl j q
theorem rhs_row (j : S5000x64.Idx) (q : dblk.contr.Idx) : (dblk.rhsIdx j q 0).val = (q ⟨0, by decide⟩).val :=
  dblk.rhsIdx_val_of_single rfl j q
theorem rhs_col (j : S5000x64.Idx) (q : dblk.contr.Idx) : (dblk.rhsIdx j q 1).val = (j 1).val := by
  unfold DotDims.rhsIdx
  rw [dif_neg (show ¬(1 : Fin S64x64.rank) ∈ dblk.rhsBatch by decide), dif_pos (show (1 : Fin S64x64.rank) ∈ dblk.rhsNonContracting by decide)]
  rfl

/-- Entry (row of the output index, k) of the left block. -/
abbrev leftAt (j : S5000x64.Idx) (k : Fin 64) : S5000x64.Idx := fun a => match a with
  | ⟨0, _⟩ => ⟨(j 0).val, (j 0).isLt⟩
  | ⟨1, _⟩ => ⟨k.val, k.isLt⟩
/-- Entry (k, column of the output index) of the right operand. -/
abbrev rightAt (j : S5000x64.Idx) (k : Fin 64) : S64x64.Idx := fun a => match a with
  | ⟨0, _⟩ => ⟨k.val, k.isLt⟩
  | ⟨1, _⟩ => ⟨(j 1).val, (j 1).isLt⟩

/-- The body's stored value at (r, c) is ∑ k, left (r, k) · right (k, c): the format changes are the identity and the
    accumulator is zero. -/
theorem body_apply (x0 : Vec Ideal S5000x64 .f32) (x1 : Vec Ideal S64x64 .f32) (j : S5000x64.Idx) :
    k1_pay1 (F := Ideal) x0 x1 j = ∑ k : Fin 64, x0 (leftAt j k) * x1 (rightAt j k) := by
  unfold k1_pay1
  refine (Ideal.matmul_constant_zero_apply dblk none _ _ j).trans ?_
  rw [shapeCast_self]
  rw [← Equiv.sum_comp (ValueIdx.contrEquiv1 dblk 64 rfl rfl).symm]
  refine Finset.sum_congr rfl fun k _ => ?_
  have hk := ValueIdx.contrEquiv1_symm_val dblk 64 rfl rfl k
  have el : dblk.lhsIdx j ((ValueIdx.contrEquiv1 dblk 64 rfl rfl).symm k) = leftAt j k := funext fun a => Fin.ext (by
    match a with
    | ⟨0, _⟩ => exact lhs_row _ _
    | ⟨1, _⟩ => exact (lhs_col _ _).trans hk)
  have er : dblk.rhsIdx j ((ValueIdx.contrEquiv1 dblk 64 rfl rfl).symm k) = rightAt j k := funext fun a => Fin.ext (by
    match a with
    | ⟨0, _⟩ => exact (rhs_row _ _).trans hk
    | ⟨1, _⟩ => exact rhs_col _ _)
  rw [el, er]
  rfl

/-! ## The whole-array product -/

/-- The host's contraction of the two whole arrays. -/
abbrev prod (a : FVec Ideal S50000x64 .f32) (w : FVec Ideal S64x64 .f32) : FVec Ideal S50000x64 .f32 :=
  Host.dotGeneral (F := Ideal) Cert.ReferenceIdeal.dot_S50000x64_S64x64_S50000x64_1_0_0_1_n_n none a w

/-- The whole contraction at (r, c) is ∑ k, left (r, k) · right (k, c). -/
theorem prod_apply (a : FVec Ideal S50000x64 .f32) (w : FVec Ideal S64x64 .f32) (i : S50000x64.Idx) :
    prod a w i = ∑ k : Fin 64, a (Cert.ReferenceIdeal.Read.lidx_main_v49 i k) * w (Cert.ReferenceIdeal.Read.ridx_main_v49 i k) := by
  simp only [prod, Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : (Cert.ReferenceIdeal.dot_S50000x64_S64x64_S50000x64_1_0_0_1_n_n).lhsIdx i ((ValueIdx.contrEquiv1 Cert.ReferenceIdeal.dot_S50000x64_S64x64_S50000x64_1_0_0_1_n_n 64 rfl rfl).symm k) = Cert.ReferenceIdeal.Read.lidx_main_v49 i k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : (Cert.ReferenceIdeal.dot_S50000x64_S64x64_S50000x64_1_0_0_1_n_n).rhsIdx i ((ValueIdx.contrEquiv1 Cert.ReferenceIdeal.dot_S50000x64_S64x64_S50000x64_1_0_0_1_n_n 64 rfl rfl).symm k) = Cert.ReferenceIdeal.Read.ridx_main_v49 i k := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-! ## From blocks to the array -/

variable (V : (c : Dev nD) → (b : Ref sig .tc) → Buf (Elt Ideal) ((c : Thread nD τ).loc b))

/-- The printed index maps over the grid: the left window and the output window move together down the rows, the right
    window stays at block (0, 0), and the output's block row is the point's number. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array product of the region's two input arrays. -/
theorem flushed_eq (c : Dev nD) (t : Fin cfg1.N) :
    (dat1 V c).flushed 2 t = ((cfg1.win 2).blk t).view.read (Elt Ideal)
      (prod (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx_facts t
  funext j
  show k1_pay1 (F := Ideal) (iblk1 V c 0 t) (iblk1 V c 1 t) j
    = prod (V c (Pipeline.arrRef spec1 0)) (V c (Pipeline.arrRef spec1 1)) (((cfg1.win 2).blk t).view.emb j)
  refine (body_apply (iblk1 V c 0 t) (iblk1 V c 1 t) j).trans ?_
  refine Eq.trans ?_ (prod_apply (V c (Pipeline.arrRef spec1 0)) (V c (Pipeline.arrRef spec1 1)) (((cfg1.win 2).blk t).view.emb j)).symm
  refine Finset.sum_congr rfl fun k _ => ?_
  have hl : ((cfg1.win 0).blk t).view.emb (leftAt j k) = Cert.ReferenceIdeal.Read.lidx_main_v49 (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have hr : ((cfg1.win 1).blk t).view.emb (rightAt j k) = Cert.ReferenceIdeal.Read.ridx_main_v49 (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  rw [← hl, ← hr]
  rfl

/-- An index of the result array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Row r of the result is written by point r / 5000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    rw [e5]; omega

/-- After the region its output array holds the whole-array product of its two input arrays as the region found them. -/
theorem out_eq (c : Dev nD) :
    (dat1 V c).arrAt 2 cfg1.N = prod (V c (Pipeline.arrRef spec1 0)) (V c (Pipeline.arrRef spec1 1)) :=
  (dat1 V c).arrAt_eq_of_cover 2 _ (fun t _ => flushed_eq V c t) cover

end Cert.KernelIdeal.Hand.Region1

end
-- ==== Proof.Stage2.lean ====
/-
  Boundaries 5 and 6: after the second matrix product, and after the mean head's host operations.

  The same two steps as for the first layer, on the first layer's output and the mean head's weights: the product is
  the whole contraction (Region1), and the stretch after it is the neighbour sum, self term and bias, whose result
  is the program's first result.
-/
import proofs.«159189_j38654705664008_1_alg».proof.Proof.Stage1b
import proofs.«159189_j38654705664008_1_alg».proof.Proof.Region1

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- The region's output array: the whole contraction of its two inputs, which are already known stages. -/
theorem at5_v49 : W5 m ρ c (Proc.devRef .tc main_v49) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W5_arr m ρ c 2).trans ((Region1.out_eq (V4 m ρ) c).trans ?_)
  show Region1.prod (W4 m ρ c (Proc.devRef .tc main_v48)) (W4 m ρ c (Proc.devRef .tc main_arg4)) = _
  rw [at4_v48 m ρ c, at4_arg4 m ρ c]
  rfl

/-- An input array of the product is left as it was. -/
theorem at5_v48 : W5 m ρ c (Proc.devRef .tc main_v48) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := by
  exact ((W5_arr m ρ c 0).trans (((dat1 (V4 m ρ) c).arrAt_in 0 rfl _).trans (A_eq1 (V4 m ρ) c 0))).trans (at4_v48 m ρ c)

theorem at5_v1 : W5 m ρ c (Proc.devRef .tc main_v1) = Cert.ReferenceIdeal.Read.val_main_v1 (F := Ideal) (m ((c.tc : Thread nD τ).loc main_arg1)) := by
  exact (W5_of_ne m ρ c main_v1 (by decide)).trans (at4_v1 m ρ c)

theorem at5_v3 : W5 m ρ c (Proc.devRef .tc main_v3) = Cert.ReferenceIdeal.Read.val_main_v3 (F := Ideal) (m ((c.tc : Thread nD τ).loc main_arg1)) := by
  exact (W5_of_ne m ρ c main_v3 (by decide)).trans (at4_v3 m ρ c)

theorem at5_v26 : W5 m ρ c (Proc.devRef .tc main_v26) = Cert.ReferenceIdeal.Read.val_main_v26 (F := Ideal) (m ((c.tc : Thread nD τ).loc main_arg1)) := by
  exact (W5_of_ne m ρ c main_v26 (by decide)).trans (at4_v26 m ρ c)

theorem at5_v28 : W5 m ρ c (Proc.devRef .tc main_v28) = Cert.ReferenceIdeal.Read.val_main_v28 (F := Ideal) (m ((c.tc : Thread nD τ).loc main_arg1)) := by
  exact (W5_of_ne m ρ c main_v28 (by decide)).trans (at4_v28 m ρ c)

theorem at5_arg5 : W5 m ρ c (Proc.devRef .tc main_arg5) = (m ((c.tc : Thread nD τ).loc main_arg5)) := by
  exact (W5_of_ne m ρ c main_arg5 (by decide)).trans (at4_arg5 m ρ c)

theorem at5_arg6 : W5 m ρ c (Proc.devRef .tc main_arg6) = (m ((c.tc : Thread nD τ).loc main_arg6)) := by
  exact (W5_of_ne m ρ c main_arg6 (by decide)).trans (at4_arg6 m ρ c)

theorem at5_arg7 : W5 m ρ c (Proc.devRef .tc main_arg7) = (m ((c.tc : Thread nD τ).loc main_arg7)) := by
  exact (W5_of_ne m ρ c main_arg7 (by decide)).trans (at4_arg7 m ρ c)

/-- The first result: the mean head. -/
theorem at6_v67 : W6 m ρ c (Proc.devRef .tc main_v67) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W5 m ρ c) (Proc.devRef .tc main_v67) = _
  after_results_simp
  simp only [at5_v49 m ρ c, at5_v1 m ρ c, at5_v3 m ρ c, at5_v26 m ρ c, at5_v28 m ρ c, at5_arg5 m ρ c] <;> rfl

theorem at6_v48 : W6 m ρ c (Proc.devRef .tc main_v48) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps2 (W5 m ρ c) (Proc.devRef .tc main_v48) = _
  after_results_simp
  exact at5_v48 m ρ c

theorem at6_v1 : W6 m ρ c (Proc.devRef .tc main_v1) = Cert.ReferenceIdeal.Read.val_main_v1 (F := Ideal) (m ((c.tc : Thread nD τ).loc main_arg1)) := by
  show StableHlo.after hostOps2 (W5 m ρ c) (Proc.devRef .tc main_v1) = _
  after_results_simp
  exact at5_v1 m ρ c

theorem at6_v3 : W6 m ρ c (Proc.devRef .tc main_v3) = Cert.ReferenceIdeal.Read.val_main_v3 (F := Ideal) (m ((c.tc : Thread nD τ).loc main_arg1)) := by
  show StableHlo.after hostOps2 (W5 m ρ c) (Proc.devRef .tc main_v3) = _
  after_results_simp
  exact at5_v3 m ρ c

theorem at6_v26 : W6 m ρ c (Proc.devRef .tc main_v26) = Cert.ReferenceIdeal.Read.val_main_v26 (F := Ideal) (m ((c.tc : Thread nD τ).loc main_arg1)) := by
  show StableHlo.after hostOps2 (W5 m ρ c) (Proc.devRef .tc main_v26) = _
  after_results_simp
  exact at5_v26 m ρ c

theorem at6_v28 : W6 m ρ c (Proc.devRef .tc main_v28) = Cert.ReferenceIdeal.Read.val_main_v28 (F := Ideal) (m ((c.tc : Thread nD τ).loc main_arg1)) := by
  show StableHlo.after hostOps2 (W5 m ρ c) (Proc.devRef .tc main_v28) = _
  after_results_simp
  exact at5_v28 m ρ c

theorem at6_arg6 : W6 m ρ c (Proc.devRef .tc main_arg6) = (m ((c.tc : Thread nD τ).loc main_arg6)) := by
  show StableHlo.after hostOps2 (W5 m ρ c) (Proc.devRef .tc main_arg6) = _
  after_results_simp
  exact at5_arg6 m ρ c

theorem at6_arg7 : W6 m ρ c (Proc.devRef .tc main_arg7) = (m ((c.tc : Thread nD τ).loc main_arg7)) := by
  show StableHlo.after hostOps2 (W5 m ρ c) (Proc.devRef .tc main_arg7) = _
  after_results_simp
  exact at5_arg7 m ρ c

end Cert.KernelIdeal.Hand

end
-- ==== Proof.Region2.lean ====
/-
  Region 2: the pipelined matrix product, as one whole-array function.

  The grid has ten points; point t multiplies rows 5000·t … 5000·t + 4999 of the left operand by the whole
  right operand and writes rows 5000·t … 5000·t + 4999 of the result. Over the extended reals a change of
  float format is the identity and the product into a zero accumulator is the plain sum
      out (r, c) = ∑ k, left (r, k) · right (k, c),
  (regions 1 and 2 also cast the left block to its own shape first, the identity), so each written block is the corresponding block of the host's contraction of the two whole arrays
  (the same sum, read at row 5000·t + r), and the ten blocks tile the result.
-/
import proofs.«159189_j38654705664008_1_alg».proof.Proof.Gen.KernelIdeal.Frame
import proofs.«159189_j38654705664008_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand.Region2

open Idealize.ShloMosaic Idealize.ShloMosaic.TcCoe Idealize.SL.Sem
open Idealize.ShloMosaic.Pipeline (Dat)
open Cert.KernelIdeal Cert.KernelIdeal.Gen

/-- The block's contraction record. -/
abbrev dblk := dot_S5000x64_S64x64_S5000x64_1_0_0_1_n_n

theorem hz : (![0, 0] : Fin 2 → Nat) = fun _ => 0 := funext fun a => by fin_cases a <;> rfl

/-! ## The body's product at an index -/

theorem lhs_row (j : S5000x64.Idx) (q : dblk.contr.Idx) : (dblk.lhsIdx j q 0).val = (j 0).val := by
  unfold DotDims.lhsIdx
  rw [dif_neg (show ¬(0 : Fin S5000x64.rank) ∈ dblk.lhsBatch by decide), dif_pos (show (0 : Fin S5000x64.rank) ∈ dblk.lhsNonContracting by decide)]
  rfl
theorem lhs_col (j : S5000x64.Idx) (q : dblk.contr.Idx) : (dblk.lhsIdx j q 1).val = (q ⟨0, by decide⟩).val :=
  dblk.lhsIdx_val_of_single rfl j q
theorem rhs_row (j : S5000x64.Idx) (q : dblk.contr.Idx) : (dblk.rhsIdx j q 0).val = (q ⟨0, by decide⟩).val :=
  dblk.rhsIdx_val_of_single rfl j q
theorem rhs_col (j : S5000x64.Idx) (q : dblk.contr.Idx) : (dblk.rhsIdx j q 1).val = (j 1).val := by
  unfold DotDims.rhsIdx
  rw [dif_neg (show ¬(1 : Fin S64x64.rank) ∈ dblk.rhsBatch by decide), dif_pos (show (1 : Fin S64x64.rank) ∈ dblk.rhsNonContracting by decide)]
  rfl

/-- Entry (row of the output index, k) of the left block. -/
abbrev leftAt (j : S5000x64.Idx) (k : Fin 64) : S5000x64.Idx := fun a => match a with
  | ⟨0, _⟩ => ⟨(j 0).val, (j 0).isLt⟩
  | ⟨1, _⟩ => ⟨k.val, k.isLt⟩
/-- Entry (k, column of the output index) of the right operand. -/
abbrev rightAt (j : S5000x64.Idx) (k : Fin 64) : S64x64.Idx := fun a => match a with
  | ⟨0, _⟩ => ⟨k.val, k.isLt⟩
  | ⟨1, _⟩ => ⟨(j 1).val, (j 1).isLt⟩

/-- The body's stored value at (r, c) is ∑ k, left (r, k) · right (k, c): the format changes are the identity and the
    accumulator is zero. -/
theorem body_apply (x0 : Vec Ideal S5000x64 .f32) (x1 : Vec Ideal S64x64 .f32) (j : S5000x64.Idx) :
    k2_pay1 (F := Ideal) x0 x1 j = ∑ k : Fin 64, x0 (leftAt j k) * x1 (rightAt j k) := by
  unfold k2_pay1
  refine (Ideal.matmul_constant_zero_apply dblk none _ _ j).trans ?_
  rw [shapeCast_self]
  rw [← Equiv.sum_comp (ValueIdx.contrEquiv1 dblk 64 rfl rfl).symm]
  refine Finset.sum_congr rfl fun k _ => ?_
  have hk := ValueIdx.contrEquiv1_symm_val dblk 64 rfl rfl k
  have el : dblk.lhsIdx j ((ValueIdx.contrEquiv1 dblk 64 rfl rfl).symm k) = leftAt j k := funext fun a => Fin.ext (by
    match a with
    | ⟨0, _⟩ => exact lhs_row _ _
    | ⟨1, _⟩ => exact (lhs_col _ _).trans hk)
  have er : dblk.rhsIdx j ((ValueIdx.contrEquiv1 dblk 64 rfl rfl).symm k) = rightAt j k := funext fun a => Fin.ext (by
    match a with
    | ⟨0, _⟩ => exact (rhs_row _ _).trans hk
    | ⟨1, _⟩ => exact rhs_col _ _)
  rw [el, er]
  rfl

/-! ## The whole-array product -/

/-- The host's contraction of the two whole arrays. -/
abbrev prod (a : FVec Ideal S50000x64 .f32) (w : FVec Ideal S64x64 .f32) : FVec Ideal S50000x64 .f32 :=
  Host.dotGeneral (F := Ideal) Cert.ReferenceIdeal.dot_S50000x64_S64x64_S50000x64_1_0_0_1_n_n none a w

/-- The whole contraction at (r, c) is ∑ k, left (r, k) · right (k, c). -/
theorem prod_apply (a : FVec Ideal S50000x64 .f32) (w : FVec Ideal S64x64 .f32) (i : S50000x64.Idx) :
    prod a w i = ∑ k : Fin 64, a (Cert.ReferenceIdeal.Read.lidx_main_v68 i k) * w (Cert.ReferenceIdeal.Read.ridx_main_v68 i k) := by
  simp only [prod, Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : (Cert.ReferenceIdeal.dot_S50000x64_S64x64_S50000x64_1_0_0_1_n_n).lhsIdx i ((ValueIdx.contrEquiv1 Cert.ReferenceIdeal.dot_S50000x64_S64x64_S50000x64_1_0_0_1_n_n 64 rfl rfl).symm k) = Cert.ReferenceIdeal.Read.lidx_main_v68 i k := funext fun a => Fin.ext (by
    match a with
    | ⟨0, _⟩ => exact Cert.ReferenceIdeal.Read.lhs_main_v68_0 _ _
    | ⟨1, _⟩ => exact (Cert.ReferenceIdeal.Read.lhs_main_v68_1 _ _).trans hk)
  have er : (Cert.ReferenceIdeal.dot_S50000x64_S64x64_S50000x64_1_0_0_1_n_n).rhsIdx i ((ValueIdx.contrEquiv1 Cert.ReferenceIdeal.dot_S50000x64_S64x64_S50000x64_1_0_0_1_n_n 64 rfl rfl).symm k) = Cert.ReferenceIdeal.Read.ridx_main_v68 i k := funext fun a => Fin.ext (by
    match a with
    | ⟨0, _⟩ => exact (Cert.ReferenceIdeal.Read.rhs_main_v68_0 _ _).trans hk
    | ⟨1, _⟩ => exact Cert.ReferenceIdeal.Read.rhs_main_v68_1 _ _)
  rw [el, er]

/-! ## From blocks to the array -/

variable (V : (c : Dev nD) → (b : Ref sig .tc) → Buf (Elt Ideal) ((c : Thread nD τ).loc b))

/-- The printed index maps over the grid: the left window and the output window move together down the rows, the right
    window stays at block (0, 0), and the output's block row is the point's number. -/
theorem idx_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product of the region's two input arrays. -/
theorem flushed_eq (c : Dev nD) (t : Fin cfg2.N) :
    (dat2 V c).flushed 2 t = ((cfg2.win 2).blk t).view.read (Elt Ideal)
      (prod (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext j
  show k2_pay1 (F := Ideal) (iblk2 V c 0 t) (iblk2 V c 1 t) j
    = prod (V c (Pipeline.arrRef spec2 0)) (V c (Pipeline.arrRef spec2 1)) (((cfg2.win 2).blk t).view.emb j)
  refine (body_apply (iblk2 V c 0 t) (iblk2 V c 1 t) j).trans ?_
  refine Eq.trans ?_ (prod_apply (V c (Pipeline.arrRef spec2 0)) (V c (Pipeline.arrRef spec2 1)) (((cfg2.win 2).blk t).view.emb j)).symm
  refine Finset.sum_congr rfl fun k _ => ?_
  have hl : ((cfg2.win 0).blk t).view.emb (leftAt j k) = Cert.ReferenceIdeal.Read.lidx_main_v68 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hr : ((cfg2.win 1).blk t).view.emb (rightAt j k) = Cert.ReferenceIdeal.Read.ridx_main_v68 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  rw [← hl, ← hr]
  rfl

/-- An index of the result array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v68).slice (win2_2.rect t)).set ↔ _
  rw [View.set_slice_whole, Rect.mem_set_unit]
  exact Iff.rfl

/-- Row r of the result is written by point r / 5000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- After the region its output array holds the whole-array product of its two input arrays as the region found them. -/
theorem out_eq (c : Dev nD) :
    (dat2 V c).arrAt 2 cfg2.N = prod (V c (Pipeline.arrRef spec2 0)) (V c (Pipeline.arrRef spec2 1)) :=
  (dat2 V c).arrAt_eq_of_cover 2 _ (fun t _ => flushed_eq V c t) cover

end Cert.KernelIdeal.Hand.Region2

end
-- ==== Proof.Stage3.lean ====
/-
  Boundaries 7 and 8: after the third matrix product, and at the end.

  The log-variance head repeats the mean head's two steps on the same first-layer output with its own weights and
  bias (Region2, then the last stretch), and leaves the first result where it is.
-/
import proofs.«159189_j38654705664008_1_alg».proof.Proof.Stage2
import proofs.«159189_j38654705664008_1_alg».proof.Proof.Region2

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-- The region's output array: the whole contraction of its two inputs, which are already known stages. -/
theorem at7_v68 : W7 m ρ c (Proc.devRef .tc main_v68) = Cert.ReferenceIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := by
  refine (W7_arr m ρ c 2).trans ((Region2.out_eq (V6 m ρ) c).trans ?_)
  show Region2.prod (W6 m ρ c (Proc.devRef .tc main_v48)) (W6 m ρ c (Proc.devRef .tc main_arg6)) = _
  rw [at6_v48 m ρ c, at6_arg6 m ρ c]
  rfl

theorem at7_v67 : W7 m ρ c (Proc.devRef .tc main_v67) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  exact (W7_of_ne m ρ c main_v67 (by decide)).trans (at6_v67 m ρ c)

theorem at7_v1 : W7 m ρ c (Proc.devRef .tc main_v1) = Cert.ReferenceIdeal.Read.val_main_v1 (F := Ideal) (m ((c.tc : Thread nD τ).loc main_arg1)) := by
  exact (W7_of_ne m ρ c main_v1 (by decide)).trans (at6_v1 m ρ c)

theorem at7_v3 : W7 m ρ c (Proc.devRef .tc main_v3) = Cert.ReferenceIdeal.Read.val_main_v3 (F := Ideal) (m ((c.tc : Thread nD τ).loc main_arg1)) := by
  exact (W7_of_ne m ρ c main_v3 (by decide)).trans (at6_v3 m ρ c)

theorem at7_v26 : W7 m ρ c (Proc.devRef .tc main_v26) = Cert.ReferenceIdeal.Read.val_main_v26 (F := Ideal) (m ((c.tc : Thread nD τ).loc main_arg1)) := by
  exact (W7_of_ne m ρ c main_v26 (by decide)).trans (at6_v26 m ρ c)

theorem at7_v28 : W7 m ρ c (Proc.devRef .tc main_v28) = Cert.ReferenceIdeal.Read.val_main_v28 (F := Ideal) (m ((c.tc : Thread nD τ).loc main_arg1)) := by
  exact (W7_of_ne m ρ c main_v28 (by decide)).trans (at6_v28 m ρ c)

theorem at7_arg7 : W7 m ρ c (Proc.devRef .tc main_arg7) = (m ((c.tc : Thread nD τ).loc main_arg7)) := by
  exact (W7_of_ne m ρ c main_arg7 (by decide)).trans (at6_arg7 m ρ c)

/-- The second result: the log-variance head. -/
theorem at8_v86 : W8 m ρ c (Proc.devRef .tc main_v86) = Cert.ReferenceIdeal.Read.val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  show StableHlo.after hostOps3 (W7 m ρ c) (Proc.devRef .tc main_v86) = _
  after_results_simp
  simp only [at7_v68 m ρ c, at7_v1 m ρ c, at7_v3 m ρ c, at7_v26 m ρ c, at7_v28 m ρ c, at7_arg7 m ρ c] <;> rfl

/-- The first result is not written again. -/
theorem at8_v67 : W8 m ρ c (Proc.devRef .tc main_v67) = Cert.ReferenceIdeal.Read.val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps3 (W7 m ρ c) (Proc.devRef .tc main_v67) = _
  after_results_simp
  exact at7_v67 m ρ c

end Cert.KernelIdeal.Hand

end
-- ==== Proof.Results.lean ====
/-
  The two results against the reference's.

  At the end the kernel's two result buffers hold the reference's last two stage functions of the kernel's argument
  arrays (Stage3); the reference's own results are the same stage functions of ITS argument arrays; the arguments
  agree.
-/
import proofs.«159189_j38654705664008_1_alg».proof.Proof.Stage3

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The mean head: the kernel's first result is the reference's first result term. -/
theorem out0_eq (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W8 m ρ c (Proc.devRef .tc main_v67) = Cert.ReferenceIdeal.Value.res_main_v67 (F := Ideal) m' c := by
  rw [Cert.ReferenceIdeal.Read.val_main_v67_eq m' c, h0, h1, h2, h3, h4, h5]
  exact at8_v67 m ρ c

/-- The log-variance head: the kernel's second result is the reference's second result term. -/
theorem out1_eq (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    W8 m ρ c (Proc.devRef .tc main_v86) = Cert.ReferenceIdeal.Value.res_main_v86 (F := Ideal) m' c := by
  rw [Cert.ReferenceIdeal.Read.val_main_v86_eq m' c, h0, h1, h2, h3, h6, h7]
  exact at8_v86 m ρ c

end Cert.KernelIdeal.Hand

end
-- ==== Proof.lean ====
/-
  The proof of `Cert.Claim`: a two-layer graph-convolution encoder (degree-normalised neighbour sums after a
  linear map; a rectifier after the first layer; two linear heads after the second), whose three linear maps
  the kernel computes as row-tiled matrix products, against the same encoder with the three maps written as
  whole contractions.

  * The frames of the two kernel programs are the generated ones; the reference's is its generated run with the
    results dropped.
  * Nothing was rewritten on the way to the idealized kernel, so `preserves` is `True`.
  * `algebraic`: both programs apply, operation for operation, the same host operations around the three
    products, and over the extended reals a row-tiled product with bf16 operands and a zero accumulator is the whole
    contraction (Region0–Region2). Walking the program's segment boundaries in order (Stage0–Stage3), the few buffers
    that stay live — the source and target index vectors, the edge and self weights, the layer outputs — hold at each
    boundary the reference's stage functions of the argument arrays; at the end so do the two results (Results). No
    finiteness is used: the only law is that a sum over the contracted axis is the same sum, block by block.
-/
import proofs.«159189_j38654705664008_1_alg».proof.Defs
import proofs.«159189_j38654705664008_1_alg».proof.Proof.Gen.Kernel
import proofs.«159189_j38654705664008_1_alg».proof.Proof.Gen.Kernel.Frame
import proofs.«159189_j38654705664008_1_alg».proof.Proof.Gen.KernelIdeal
import proofs.«159189_j38654705664008_1_alg».proof.Proof.Gen.KernelIdeal.Frame
import proofs.«159189_j38654705664008_1_alg».proof.Proof.Gen.ReferenceIdeal
import proofs.«159189_j38654705664008_1_alg».proof.Proof.Gen.ReferenceIdeal.Run
import proofs.«159189_j38654705664008_1_alg».proof.Proof.Gen.Pre_finite_inputs
import proofs.«159189_j38654705664008_1_alg».proof.Proof.KernelRun
import proofs.«159189_j38654705664008_1_alg».proof.Proof.Results
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs run; the kernel's two result arrays end at the last boundary's contents, which are the reference's
    two result terms of the agreeing arguments. -/
theorem algebraic : Cert.algebraic_KernelIdeal_ReferenceIdeal := by
  intro m ρ m' ρ' _ hagree
  refine ⟨fun c => Cert.KernelIdeal.Gen.W8 m ρ c (Proc.devRef .tc Cert.KernelIdeal.main_v67),
    fun c => Cert.KernelIdeal.Gen.W8 m ρ c (Proc.devRef .tc Cert.KernelIdeal.main_v86),
    Cert.KernelIdeal.Hand.run_results m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  exact ⟨(h c).1.trans (Cert.KernelIdeal.Hand.out0_eq m ρ m' c a0 a1 a2 a3 a4 a5).symm,
    (h c).2.1.trans (Cert.KernelIdeal.Hand.out1_eq m ρ m' c a0 a1 a2 a3 a6 a7).symm,
    (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
